-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  main_v8
-- ==== Kernel.lean ====
abbrev S16x2048x128 : Shape := ⟨3, ![16, 2048, 128]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1024x128, .f32⟩
  | .local _ .vmem, ⟨5, _⟩ => ⟨S1x1024x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  reduces_S1024x2048_S1024 : S1024x2048.Reduces [1] S1024
  shapeCasts_S1024_S1024x1 : S1024.ShapeCasts S1024x1
  broadcasts_S1024x1_S1024x2048 : S1024x1.Broadcasts S1024x2048
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x2048x128.size a
  hwx0_0 : ∀ i : grid0.Coords, EltTy.bits .f32 = 32 ∨ (Rect.block (s := S16x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S16x2048x128.size a
  hwx0_2 : ∀ i : grid0.Coords, EltTy.bits .f32 = 32 ∨ (Rect.block (s := S16x2048x128) S1x1024x128.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x2048, .f32⟩
  | .hbm, ⟨3, _⟩ => ⟨S_, .f32⟩
  | .hbm, ⟨4, _⟩ => ⟨S16x2048x2048, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048x1, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.AttnSpec.lean ====
/-
  Scaled dot-product attention of one array against itself as keys and values, entry by entry on the extended reals.
  For a batch b, a query row q and a feature d the result is the sum over the key rows k of
  softmax_k(score(q, ·)) · x1(b, k, d), where the softmax of a score row subtracts the row's maximum, exponentiates and
  divides by the row's sum. Two spellings of the score differ: the scale applied to each query entry before the
  contraction, or applied once to the contracted sum. On real entries the two agree (a real factor moves through a finite sum
  of reals), and everything after the scores is one function of the score row.
-/
import Idealize.ShloMosaic.PureOps.Ideal.Laws
import Idealize.ShloMosaic.Lib.ValueIdx

noncomputable section

namespace Cert.Attn

open Idealize.ShloMosaic Idealize.ShloMosaic.ValueIdx

/-- The three-axis arrays the attention reads and writes: batch, row, feature. -/
abbrev Arr : Type := (⟨3, ![16, 2048, 128]⟩ : Shape).Idx → EReal

/-- The scale, 1/sqrt 128 rounded to single precision, as the real its word denotes. -/
abbrev scale : EReal := Ideal.ofBits .f32 0x3DB504F3#32

/-- The score of query row q against key row k with the scale applied to the contracted sum. -/
def scoreSum (x0 x1 : Arr) (b : Fin 16) (q k : Fin 2048) : EReal :=
  (∑ e : Fin 128, x0 (ix3 b q e) * x1 (ix3 b k e)) * scale

/-- The score with the scale applied to each query entry before the contraction. -/
def scoreEach (x0 x1 : Arr) (b : Fin 16) (q k : Fin 2048) : EReal :=
  ∑ e : Fin 128, (x0 (ix3 b q e) * scale) * x1 (ix3 b k e)

/-- The maximum of a score row, folded from minus infinity's word. -/
def rowMax (s : Fin 2048 → EReal) : EReal :=
  (Finset.univ : Finset (Fin 2048)).fold max (Ideal.ofBits .f32 0xFF800000#32) s

/-- The exponential of a score less its row's maximum. -/
def expShift (s : Fin 2048 → EReal) (k : Fin 2048) : EReal := Ideal.exp (s k - rowMax s)

/-- The softmax weights of a score row applied to a value column. -/
def attend (s v : Fin 2048 → EReal) : EReal :=
  ∑ k : Fin 2048, Ideal.div (expShift s k) (∑ k' : Fin 2048, expShift s k') * v k

/-- The attention with the scale on the contracted sum, as one function of the two arrays. -/
def attnSum (x0 x1 : Arr) : Arr := fun i =>
  attend (scoreSum x0 x1 (i 0) (i 1)) (fun k => x1 (ix3 (i 0) k (i 2)))

/-- The attention with the scale on each query entry. -/
def attnEach (x0 x1 : Arr) : Arr := fun i =>
  attend (scoreEach x0 x1 (i 0) (i 1)) (fun k => x1 (ix3 (i 0) k (i 2)))

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale's word denotes a real number. -/
theorem scale_real : ∃ r : ℝ, scale = (r : EReal) :=
  ⟨11863283 * (2 ^ 27)⁻¹, by simp [scale, Ideal.ofBits, Ideal.ieee]⟩

/-- On arrays of reals the two scores are one: the scale is a real factor of every term of the contraction. -/
theorem scoreEach_eq_scoreSum (x0 x1 : Arr) (h0 : ∀ i, ∃ r : ℝ, x0 i = (r : EReal)) (h1 : ∀ i, ∃ r : ℝ, x1 i = (r : EReal))
    (b : Fin 16) (q k : Fin 2048) : scoreEach x0 x1 b q k = scoreSum x0 x1 b q k := by
  choose a ha using h0
  choose c hc using h1
  obtain ⟨σ, hσ⟩ := scale_real
  unfold scoreEach scoreSum
  rw [hσ]
  simp only [ha, hc, ← EReal.coe_mul, ← coe_sum]
  rw [Finset.sum_mul]
  refine congrArg _ (Finset.sum_congr rfl fun e _ => ?_)
  ring

/-- So on arrays of reals the two attentions are one function. -/
theorem attnEach_eq_attnSum (x0 x1 : Arr) (h0 : ∀ i, ∃ r : ℝ, x0 i = (r : EReal)) (h1 : ∀ i, ∃ r : ℝ, x1 i = (r : EReal)) :
    attnEach x0 x1 = attnSum x0 x1 := by
  funext i
  unfold attnEach attnSum
  rw [show scoreEach x0 x1 (i 0) (i 1) = scoreSum x0 x1 (i 0) (i 1) from
    funext fun k => scoreEach_eq_scoreSum x0 x1 h0 h1 (i 0) (i 1) k]

/-- The maximum of minus infinity's word and a row's maximum folded from that word is the row's maximum. -/
theorem max_rowMax (s : Fin 2048 → EReal) : max (Ideal.ofBits .f32 0xFF800000#32) (rowMax s) = rowMax s := by
  unfold rowMax
  exact max_eq_right ((Finset.le_fold_max _).2 (Or.inl le_rfl))

end Cert.Attn

end
-- ==== Proof.Finite.lean ====
/-
  Finite inputs are real. The precondition computes, for each of the two arrays, the conjunction over all entries of
  `|x| < +∞`, and the conjunction of the two results. If it is 1, every entry of both arrays is a real number: an entry's
  absolute value `max x (-x)` is `⊤` at both infinities, so only a coerced real passes the strict comparison with `⊤`.
-/
import proofs.«178215_j39676907881693_2_alg».proof.Pre_finite_inputs
import Idealize.ShloMosaic.PureOps.Ideal.Laws
import Idealize.ShloMosaic.Lib.ValueIdx
import Idealize.ShloMosaic.Lib.ReduceAll

noncomputable section

open Idealize.ShloMosaic Idealize.ShloMosaic.ValueIdx

namespace Cert.Attn

/-- The word `0x7F800000` (sign 0, exponent all ones, fraction 0) reads as `⊤`. -/
theorem ofBits_inf_f32 : Ideal.ofBits .f32 0x7F800000#32 = (⊤ : EReal) := by
  simp [Ideal.ofBits, Ideal.ieee]

/-- An extended real whose absolute value `max x (-x)` lies strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The result shape of a reduction over all axes has one index. -/
instance finite_result_idx_subsingleton : Subsingleton Cert.Pre_finite_inputs.S_.Idx := ⟨fun a b => funext fun d => d.elim0⟩

/-- One entry: if the comparison `|x i| < +∞` against the broadcast word of `+∞` is 1, the entry is a real number. -/
theorem real_of_cmp_abs_inf {s : Shape} (hb : Cert.Pre_finite_inputs.S_.BroadcastsInDim s (![] : Fin 0 → Fin s.rank))
    (x : FVec Ideal s .f32) (i : s.Idx)
    (h : cmpf .olt (Host.absf x)
        (broadcastInDim s ![] hb (constant (F := Ideal) Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [ofBits_inf_f32] at h'
  refine real_of_abs_lt_top (x i) ?_
  by_contra hn
  simp [Ideal.cmp, hn] at h'

/-- If the precondition is all ones, every entry of both arrays is a real number: the final conjunction gives both
    reductions 1, a reduction by `and` over all axes that is 1 met a 1 at every index, and a 1 at an index is
    `|x i| < ⊤`, which excludes `⊥` and `⊤`. -/
theorem real_of_finite_inputs [Cert.Pre_finite_inputs.Facts]
    (x0 x1 : FVec Ideal Cert.Pre_finite_inputs.S16x2048x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  unfold Cert.Pre_finite_inputs.fn at h0
  dsimp only at h0
  obtain ⟨ha, hb⟩ := IntOp.andi_eq_one.1 h0
  exact ⟨fun i => real_of_cmp_abs_inf _ x0 i (Host.reduce_andi_all _ _ _ _ _ ha i),
    fun i => real_of_cmp_abs_inf _ x1 i (Host.reduce_andi_all _ _ _ _ _ hb i)⟩

end Cert.Attn

end
-- ==== Proof.RefAttn.lean ====
/-
  The reference computes the attention with the scale on the contracted sum: its score array is the batched product of the
  two arguments over the feature axis times the scale; its row maximum, the exponentials of the shifted scores, their row
  sums and the quotients are the softmax of each score row; its result contracts the weights with the second argument over
  the key rows. Read index by index, stage by stage, that is the function attnSum of the two argument arrays.
-/
import proofs.«178215_j39676907881693_2_alg».proof.Proof.Gen.ReferenceIdeal.Read
import proofs.«178215_j39676907881693_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 : Arr)

/-! ## The stages' index functions at coordinates -/

theorem lidx0 (b : Fin 16) (q k : Fin 2048) (e : Fin 128) : lidx_main_v0 (ix3 b q k) e = ix3 b q e :=
  funext fun a => Fin.ext (by match a with | ⟨0, _⟩ => rfl | ⟨1, _⟩ => rfl | ⟨2, _⟩ => rfl)
theorem ridx0 (b : Fin 16) (q k : Fin 2048) (e : Fin 128) : ridx_main_v0 (ix3 b q k) e = ix3 b k e :=
  funext fun a => Fin.ext (by match a with | ⟨0, _⟩ => rfl | ⟨1, _⟩ => rfl | ⟨2, _⟩ => rfl)
theorem idx67 (b : Fin 16) (q k : Fin 2048) : idx_main_v6 (idx_main_v7 (ix3 b q k)) = ix2 b q :=
  funext fun a => Fin.ext (by match a with | ⟨0, _⟩ => rfl | ⟨1, _⟩ => rfl)
theorem idx10 (b : Fin 16) (q k : Fin 2048) : idx_main_v10 (ix2 b q) k = ix3 b q k :=
  funext fun a => Fin.ext (by match a with | ⟨0, _⟩ => rfl | ⟨1, _⟩ => rfl | ⟨2, _⟩ => rfl)
theorem idx1112 (b : Fin 16) (q k : Fin 2048) : idx_main_v11 (idx_main_v12 (ix3 b q k)) = ix2 b q :=
  funext fun a => Fin.ext (by match a with | ⟨0, _⟩ => rfl | ⟨1, _⟩ => rfl)
theorem lidx14 (b : Fin 16) (q : Fin 2048) (d : Fin 128) (k : Fin 2048) : lidx_main_v14 (ix3 b q d) k = ix3 b q k :=
  funext fun a => Fin.ext (by match a with | ⟨0, _⟩ => rfl | ⟨1, _⟩ => rfl | ⟨2, _⟩ => rfl)
theorem ridx14 (b : Fin 16) (q : Fin 2048) (d : Fin 128) (k : Fin 2048) : ridx_main_v14 (ix3 b q d) k = ix3 b k d :=
  funext fun a => Fin.ext (by match a with | ⟨0, _⟩ => rfl | ⟨1, _⟩ => rfl | ⟨2, _⟩ => rfl)

/-! ## The stages at coordinates -/

/-- The scaled score array at (b, q, k) is the contraction over the features times the scale. -/
theorem score_at (b : Fin 16) (q k : Fin 2048) :
    val_main_v2 (F := Ideal) x0 x1 (ix3 b q k) = scoreSum x0 x1 b q k := by
  rw [val_main_v2_apply, val_main_v0_apply, val_main_v1_apply, val_main_cst_apply]
  simp only [lidx0, ridx0]
  rfl

/-- The maximum over the key axis, taken once more against minus infinity, is the row's maximum. -/
theorem max_at (b : Fin 16) (q : Fin 2048) :
    val_main_v5 (F := Ideal) x0 x1 (ix2 b q) = rowMax (scoreSum x0 x1 b q) := by
  have hr : S16x2048x2048.Reduces [2] S16x2048 := by decide
  have hl : ∀ k : Fin 2048, hr.lift (ix2 b q) k = ix3 b q k := fun k =>
    funext fun a => Fin.ext (by match a with | ⟨0, _⟩ => rfl | ⟨1, _⟩ => rfl | ⟨2, _⟩ => rfl)
  have h3 : val_main_v3 (F := Ideal) x0 x1 (ix2 b q) = rowMax (scoreSum x0 x1 b q) := by
    unfold val_main_v3
    rw [Host.reduce_eq_fold_single FloatOps.maximumf _ _ reducesTo_S16x2048x2048_S16x2048_d2 hr h_S_ (ix2 b q)]
    unfold rowMax
    show (Finset.univ : Finset (Fin 2048)).fold max (Ideal.ofBits .f32 0xFF800000#32) (fun k => val_main_v2 (F := Ideal) x0 x1 (hr.lift (ix2 b q) k)) = _
    exact Finset.fold_congr fun (k : Fin 2048) _ => by rw [hl k]; exact score_at x0 x1 b q k
  rw [val_main_v5_apply, val_main_v4_apply, val_main_cst_1_apply, h3]
  exact max_rowMax _

/-- The exponential of the shifted score. -/
theorem exp_at (b : Fin 16) (q k : Fin 2048) :
    val_main_v9 (F := Ideal) x0 x1 (ix3 b q k) = expShift (scoreSum x0 x1 b q) k := by
  rw [val_main_v9_apply, val_main_v8_apply, val_main_v7_apply, val_main_v6_apply, idx67, max_at, score_at]
  rfl

/-- The row sum of the exponentials, from the zero word. -/
theorem den_at (b : Fin 16) (q : Fin 2048) :
    val_main_v10 (F := Ideal) x0 x1 (ix2 b q) = ∑ k : Fin 2048, expShift (scoreSum x0 x1 b q) k := by
  rw [val_main_v10_apply, val_main_cst_2_apply, Ideal.ofBits_def, Ideal.ofBits_zero_f32, zero_add]
  refine Finset.sum_congr rfl fun k _ => ?_
  rw [idx10, exp_at]

/-- The softmax weight. -/
theorem prob_at (b : Fin 16) (q k : Fin 2048) :
    val_main_v13 (F := Ideal) x0 x1 (ix3 b q k)
      = Ideal.div (expShift (scoreSum x0 x1 b q) k) (∑ k' : Fin 2048, expShift (scoreSum x0 x1 b q) k') := by
  rw [val_main_v13_apply, val_main_v12_apply, val_main_v11_apply, idx1112, den_at, exp_at]
  rfl

/-- The reference's result is the attention with the scale on the contracted sum. -/
theorem ref_eq : val_main_v14 (F := Ideal) x0 x1 = attnSum x0 x1 := by
  funext i
  obtain ⟨b, q, d, rfl⟩ : ∃ (b : Fin 16) (q : Fin 2048) (d : Fin 128), i = ix3 b q d := ⟨i 0, i 1, i 2, eq_ix3 i⟩
  rw [val_main_v14_apply]
  show _ = attend (scoreSum x0 x1 b q) (fun k => x1 (ix3 b k d))
  unfold attend
  refine Finset.sum_congr rfl fun k _ => ?_
  rw [lidx14, ridx14, prob_at]

end Cert.ReferenceIdeal.RefValue

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.KerPayload.lean ====
/-
  What the kernel body stores, entry by entry. From a block of 1024 query rows and the batch's 2048 key rows the body scales
  every query entry, contracts query row q with key row k over the 128 features (the score), takes each score row's maximum,
  exponentiates the shifted scores, divides by their row sum, and contracts the weights with the key rows again as values.
  Changes of float format are the identity on extended reals. So the stored entry (q, d) is the softmax of score row q
  applied to column d of the key block: attend of the per-entry-scaled score row.
-/
import proofs.«178215_j39676907881693_2_alg».proof.Proof.Gen.KernelIdeal.Skeleton
import proofs.«178215_j39676907881693_2_alg».proof.Proof.AttnSpec
import proofs.«178215_j39676907881693_2_alg».proof.Proof.LibMatmulAt
import proofs.«178215_j39676907881693_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Cert.Attn Cert.Lib.Keepdims

/-! ## The product of a matrix with a transposed matrix, read at an index

The first product contracts the second axis of both operands: entry (q, k) is the sum over the feature e of
A(q, e) · B(k, e). -/

theorem scoreDims_lhs_row (i : S1024x2048.Idx) (p : dot_S1024x128_S2048x128_S1024x2048_1_1_0_0_n_n.contr.Idx) :
    (dot_S1024x128_S2048x128_S1024x2048_1_1_0_0_n_n.lhsIdx i p 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem scoreDims_lhs_feat (i : S1024x2048.Idx) (p : dot_S1024x128_S2048x128_S1024x2048_1_1_0_0_n_n.contr.Idx) :
    (dot_S1024x128_S2048x128_S1024x2048_1_1_0_0_n_n.lhsIdx i p 1).val = (p ⟨0, by decide⟩).val :=
  dot_S1024x128_S2048x128_S1024x2048_1_1_0_0_n_n.lhsIdx_val_of_single rfl i p
theorem scoreDims_rhs_row (i : S1024x2048.Idx) (p : dot_S1024x128_S2048x128_S1024x2048_1_1_0_0_n_n.contr.Idx) :
    (dot_S1024x128_S2048x128_S1024x2048_1_1_0_0_n_n.rhsIdx i p 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem scoreDims_rhs_feat (i : S1024x2048.Idx) (p : dot_S1024x128_S2048x128_S1024x2048_1_1_0_0_n_n.contr.Idx) :
    (dot_S1024x128_S2048x128_S1024x2048_1_1_0_0_n_n.rhsIdx i p 1).val = (p ⟨0, by decide⟩).val :=
  dot_S1024x128_S2048x128_S1024x2048_1_1_0_0_n_n.rhsIdx_val_of_single rfl i p

/-- The score product into the zero accumulator at (q, k): the sum over the features of A(q, e) · B(k, e). -/
theorem scoreProduct_apply {φ₁ φ₂ : FTy} (A : FVec Ideal S1024x128 φ₁) (B : FVec Ideal S2048x128 φ₂) (q : Fin 1024) (k : Fin 2048) :
    matmul dot_S1024x128_S2048x128_S1024x2048_1_1_0_0_n_n none A B (constant S1024x2048 .f32 0x00000000#32) (ix2 q k)
      = ∑ e : Fin 128, A (ix2 q e) * B (ix2 k e) := by
  simp only [matmul]
  rw [Ideal.matmul_constant_zero_apply, ← Equiv.sum_comp (contrEquiv1 dot_S1024x128_S2048x128_S1024x2048_1_1_0_0_n_n 128 rfl rfl).symm]
  refine Finset.sum_congr rfl fun e _ => ?_
  have he := contrEquiv1_symm_val dot_S1024x128_S2048x128_S1024x2048_1_1_0_0_n_n 128 rfl rfl e
  have el : dot_S1024x128_S2048x128_S1024x2048_1_1_0_0_n_n.lhsIdx (ix2 q k) ((contrEquiv1 dot_S1024x128_S2048x128_S1024x2048_1_1_0_0_n_n 128 rfl rfl).symm e) = ix2 q e := funext fun a => Fin.ext (by
    match a with
    | ⟨0, _⟩ => exact scoreDims_lhs_row _ _
    | ⟨1, _⟩ => exact (scoreDims_lhs_feat _ _).trans he)
  have er : dot_S1024x128_S2048x128_S1024x2048_1_1_0_0_n_n.rhsIdx (ix2 q k) ((contrEquiv1 dot_S1024x128_S2048x128_S1024x2048_1_1_0_0_n_n 128 rfl rfl).symm e) = ix2 k e := funext fun a => Fin.ext (by
    match a with
    | ⟨0, _⟩ => exact scoreDims_rhs_row _ _
    | ⟨1, _⟩ => exact (scoreDims_rhs_feat _ _).trans he)
  rw [el, er]

/-! ## The body's stages -/

variable (x0 : Vec Ideal S1x1024x128 .f32) (x1 : Vec Ideal S1x2048x128 .f32)

/-- The query block, every entry scaled. -/
def queries : FVec Ideal S1024x128 .bf16 :=
  truncf .bf16 (mulf (shapeCast S1024x128 x0 shapeCasts_S1x1024x128_S1024x128) (broadcast S1024x128 (Scalar.ofBits .f32 0x3DB504F3#32))) bitsLt_bf16_f32
/-- The key rows of the batch (also its value rows). -/
def keys : FVec Ideal S2048x128 .bf16 :=
  truncf .bf16 (shapeCast S2048x128 x1 shapeCasts_S1x2048x128_S2048x128) bitsLt_bf16_f32
/-- The scores: queries against keys over the features. -/
def scores : FVec Ideal S1024x2048 .f32 :=
  matmul dot_S1024x128_S2048x128_S1024x2048_1_1_0_0_n_n none (queries x0) (keys x1) (constant S1024x2048 .f32 0x00000000#32)
/-- Each score row's maximum. -/
def scoreMaxes : FVec Ideal S1024 .f32 :=
  multiReduction .maximumf [1] S1024 (scores x0 x1) 0xFF800000#32 reduces_S1024x2048_S1024 (.inl rfl) rfl
/-- The exponentials of the scores less their row's maximum. -/
def expos : FVec Ideal S1024x2048 .f32 :=
  exp (subf (scores x0 x1) (broadcastTo S1024x2048 (shapeCast S1024x1 (scoreMaxes x0 x1) shapeCasts_S1024_S1024x1) broadcasts_S1024x1_S1024x2048))
/-- Each row's sum of exponentials. -/
def expoSums : FVec Ideal S1024 .f32 :=
  multiReduction .add [1] S1024 (expos x0 x1) 0x00000000#32 reduces_S1024x2048_S1024 (.inl rfl) rfl
/-- The softmax weights. -/
def weights : FVec Ideal S1024x2048 .f32 :=
  divf (expos x0 x1) (broadcastTo S1024x2048 (shapeCast S1024x1 (expoSums x0 x1) shapeCasts_S1024_S1024x1) broadcasts_S1024x1_S1024x2048)

/-- The payload is the weights contracted with the key rows, viewed as a block with a leading unit axis. -/
theorem pay_eq : k0_pay1 x0 x1
    = shapeCast S1x1024x128 (matmul dot_S1024x2048_S2048x128_S1024x128_1_0_0_1_n_n none (truncf .bf16 (weights x0 x1) bitsLt_bf16_f32) (keys x1)
        (constant S1024x128 .f32 0x00000000#32)) shapeCasts_S1024x128_S1x1024x128 := rfl

/-- The score row of query row q, as a function of the key row. -/
abbrev scoreRow (q : Fin 1024) : Fin 2048 → EReal :=
  fun k => ∑ e : Fin 128, (x0 (ix3 0 q e) * scale) * x1 (ix3 0 k e)

theorem queries_at (q : Fin 1024) (e : Fin 128) : queries x0 (ix2 q e) = x0 (ix3 0 q e) * scale := by
  show shapeCast S1024x128 x0 shapeCasts_S1x1024x128_S1024x128 (ix2 q e) * Ideal.ofBits .f32 0x3DB504F3#32 = _
  rw [shapeCast_1ab_ab_apply]

theorem keys_at (k : Fin 2048) (e : Fin 128) : keys x1 (ix2 k e) = x1 (ix3 0 k e) := by
  show shapeCast S2048x128 x1 shapeCasts_S1x2048x128_S2048x128 (ix2 k e) = _
  rw [shapeCast_1ab_ab_apply]

theorem scores_at (q : Fin 1024) (k : Fin 2048) : scores x0 x1 (ix2 q k) = scoreRow x0 x1 q k := by
  unfold scores
  refine (scoreProduct_apply (queries x0) (keys x1) q k).trans ?_
  exact Finset.sum_congr rfl fun e _ => by rw [queries_at, keys_at]

theorem scoreMaxes_at (q : Fin 1024) : scoreMaxes x0 x1 (ix1 q) = rowMax (scoreRow x0 x1 q) := by
  unfold scoreMaxes rowMax
  refine (rowMaximum_apply (scores x0 x1) _ _ _ _ q).trans ?_
  exact Finset.fold_congr fun k _ => scores_at x0 x1 q k

theorem expos_at (q : Fin 1024) (k : Fin 2048) : expos x0 x1 (ix2 q k) = expShift (scoreRow x0 x1 q) k := by
  show Ideal.exp (scores x0 x1 (ix2 q k) - broadcastTo S1024x2048 (shapeCast S1024x1 (scoreMaxes x0 x1) shapeCasts_S1024_S1024x1) broadcasts_S1024x1_S1024x2048 (ix2 q k)) = _
  rw [broadcastTo_a1_ab_apply, shapeCast_a_a1_apply, scoreMaxes_at, scores_at]
  rfl

theorem expoSums_at (q : Fin 1024) : expoSums x0 x1 (ix1 q) = ∑ k : Fin 2048, expShift (scoreRow x0 x1 q) k := by
  unfold expoSums
  refine (rowSum_apply (expos x0 x1) _ _ _ _ q).trans ?_
  exact Finset.sum_congr rfl fun k _ => expos_at x0 x1 q k

theorem weights_at (q : Fin 1024) (k : Fin 2048) :
    weights x0 x1 (ix2 q k) = Ideal.div (expShift (scoreRow x0 x1 q) k) (∑ k' : Fin 2048, expShift (scoreRow x0 x1 q) k') := by
  show Ideal.div (expos x0 x1 (ix2 q k)) (broadcastTo S1024x2048 (shapeCast S1024x1 (expoSums x0 x1) shapeCasts_S1024_S1024x1) broadcasts_S1024x1_S1024x2048 (ix2 q k)) = _
  rw [broadcastTo_a1_ab_apply, shapeCast_a_a1_apply, expoSums_at, expos_at]

/-- The stored entry (q, d) of the body's payload: the softmax of the score row of query row q, applied to column d of
    the key rows. -/
theorem pay_at (z : Fin 1) (q : Fin 1024) (d : Fin 128) :
    k0_pay1 x0 x1 (ix3 z q d)
      = attend (fun k => ∑ e : Fin 128, (x0 (ix3 0 q e) * scale) * x1 (ix3 0 k e)) (fun k => x1 (ix3 0 k d)) := by
  rw [pay_eq, shapeCast_ab_1ab_apply]
  refine (matmul_zero_plain_apply dot_S1024x2048_S2048x128_S1024x128_1_0_0_1_n_n rfl none _ _ (ix2 q d)).trans ?_
  unfold attend
  refine Finset.sum_congr rfl fun k _ => ?_
  show weights x0 x1 (ix2 q k) * keys x1 (ix2 k d) = _
  rw [weights_at, keys_at]

end Cert.KernelIdeal.Hand

end
-- ==== Proof.KerArray.lean ====
/-
  From blocks to the whole result array. The grid has 16 x 2 points. At point (b, h) the body reads the block of 1024 query
  rows h * 1024 ... h * 1024 + 1023 of batch b of the first array and all 2048 key rows of batch b of the second array, and
  writes the block of the same 1024 rows of batch b of the result. An entry (b, r, d) of the result therefore depends on
  query row r of batch b and on every key row of batch b, and on nothing else: it is the attention of the two whole arrays
  at (b, r, d). The 32 blocks tile the result array (row r of batch b lies in the block of point (b, r / 1024)), so after the
  run the result array is the attention of the two argument arrays, entry by entry.
-/
import proofs.«178215_j39676907881693_2_alg».proof.Proof.AttnSpec
import proofs.«178215_j39676907881693_2_alg».proof.Proof.KerPayload
import proofs.«178215_j39676907881693_2_alg».proof.Proof.Gen.KernelIdeal.Frame
import proofs.«178215_j39676907881693_2_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.Attn

variable (m : (ℓ : Loc nD τ sig) → Buf (Elt Ideal) ℓ) (ρ : Dev nD → PrngReg)

/-- The body's loads and its store start at the origin of their blocks. -/
theorem origin_zero : (![0, 0, 0] : Fin 3 → Nat) = fun _ => 0 := funext fun a => by fin_cases a <;> rfl

/-- The three index maps over the grid: the query block and the result block have the same batch and the same row-block
    index, the key block has the result's batch and row-block index 0, every feature-block index is 0, and the result's
    batch index is at most 15 and its row-block index at most 1. -/
theorem block_index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 15
    ∧ win0_2.index t (1 : Fin 3) ≤ 1
    ∧ win0_2.index t (2 : Fin 3) = 0 :=
  (by decide +kernel : ∀ t : Fin grid0.N, _)

/-- Every batch and every half of the rows is some point's result block. -/
theorem block_index_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- One stored entry. If the query block's row `y 1` is row `i 1` of batch `i 0` of the array `a0`, the key block is
    batch `i 0` of the array `a1`, and `y` and `i` have the same feature coordinate, then the entry the body stores at `y`
    is the attention of `a0` and `a1` at `i`: the score row of query row `i 1` against every key row of the batch, its
    softmax, applied to feature column `i 2` of the key rows. -/
theorem stored_entry (x0 : Vec Ideal S1x1024x128 .f32) (x1 : Vec Ideal S1x2048x128 .f32) (a0 a1 : Arr)
    (y : S1x1024x128.Idx) (i : S16x2048x128.Idx)
    (h0 : ∀ e : Fin 128, x0 (ix3 0 (y 1) e) = a0 (ix3 (i 0) (i 1) e))
    (h1 : ∀ (k : Fin 2048) (e : Fin 128), x1 (ix3 0 k e) = a1 (ix3 (i 0) k e))
    (h2 : (i 2).val = (y 2).val) :
    k0_pay1 x0 x1 y = attnEach a0 a1 i := by
  obtain ⟨z, q, d, rfl⟩ : ∃ (z : Fin 1) (q : Fin 1024) (d : Fin 128), y = ix3 z q d := ⟨y 0, y 1, y 2, eq_ix3 y⟩
  obtain ⟨b, r, d', rfl⟩ : ∃ (b : Fin 16) (r : Fin 2048) (d' : Fin 128), i = ix3 b r d' := ⟨i 0, i 1, i 2, eq_ix3 i⟩
  obtain rfl : d' = d := Fin.ext h2
  have h0' : ∀ e : Fin 128, x0 (ix3 0 q e) = a0 (ix3 b r e) := h0
  have h1' : ∀ (k : Fin 2048) (e : Fin 128), x1 (ix3 0 k e) = a1 (ix3 b k e) := h1
  rw [pay_at]
  show attend _ _ = attend (scoreEach a0 a1 b r) (fun k => a1 (ix3 b k d'))
  unfold scoreEach
  simp only [h0', h1']

/-- An entry of the query block at point `t` is the entry of the first array at the block's offset: block index times
    block extent plus the coordinate inside the block, on each axis. -/
theorem query_block_apply (c : Dev nD) (t : Fin cfg0.N) (x : S1x1024x128.Idx) (k : S16x2048x128.Idx)
    (hk0 : (k 0).val = win0_0.index t (0 : Fin 3) * 1 + (x 0).val)
    (hk1 : (k 1).val = win0_0.index t (1 : Fin 3) * 1024 + (x 1).val)
    (hk2 : (k 2).val = win0_0.index t (2 : Fin 3) * 128 + (x 2).val) :
    (iblk m c 0 t : Vec Ideal S1x1024x128 .f32) x = (V m c main_arg0 : S16x2048x128.Idx → EReal) k := by
  unfold iblk
  rw [View.read_apply]
  show V m c main_arg0 _ = V m c main_arg0 _
  congr 1
  funext a
  apply Fin.ext
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 128 + 1 * (x 2).val = (k 2).val; omega

/-- An entry of the key block at point `t` is the entry of the second array at the block's offset. -/
theorem key_block_apply (c : Dev nD) (t : Fin cfg0.N) (x : S1x2048x128.Idx) (k : S16x2048x128.Idx)
    (hk0 : (k 0).val = win0_1.index t (0 : Fin 3) * 1 + (x 0).val)
    (hk1 : (k 1).val = win0_1.index t (1 : Fin 3) * 2048 + (x 1).val)
    (hk2 : (k 2).val = win0_1.index t (2 : Fin 3) * 128 + (x 2).val) :
    (iblk m c 1 t : Vec Ideal S1x2048x128 .f32) x = (V m c main_arg1 : S16x2048x128.Idx → EReal) k := by
  unfold iblk
  rw [View.read_apply]
  show V m c main_arg1 _ = V m c main_arg1 _
  congr 1
  funext a
  apply Fin.ext
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 128 + 1 * (x 2).val = (k 2).val; omega

/-- The array index of entry `y` of the result block at point `t`: block index times block extent plus `y`, axis by axis. -/
theorem result_block_emb (t : Fin cfg0.N) (y : S1x1024x128.Idx) :
    ((((cfg0.win 2).blk t).view.emb y) 0).val = win0_2.index t (0 : Fin 3) * 1 + (y 0).val
    ∧ ((((cfg0.win 2).blk t).view.emb y) 1).val = win0_2.index t (1 : Fin 3) * 1024 + (y 1).val
    ∧ ((((cfg0.win 2).blk t).view.emb y) 2).val = win0_2.index t (2 : Fin 3) * 128 + (y 2).val := by
  refine ⟨?_, ?_, ?_⟩
  · show win0_2.index t (0 : Fin 3) * 1 + 1 * (y 0).val = _; omega
  · show win0_2.index t (1 : Fin 3) * 1024 + 1 * (y 1).val = _; omega
  · show win0_2.index t (2 : Fin 3) * 128 + 1 * (y 2).val = _; omega

/-- What point `t` writes back is block `t` of the attention of the two argument arrays: at the block's entry `y`, which is
    entry (batch of the block, row-block index * 1024 + `y 1`, `y 2`) of the array, the query block's row `y 1` is that row of
    the first array and the key block is that batch of the second. -/
theorem flushed_eq (c : Dev nD) (t : Fin cfg0.N) :
    (dats m 0 c).flushed 2 t = ((cfg0.win 2).blk t).view.read (Elt Ideal) (attnEach (V m c main_arg0) (V m c main_arg1)) := by
  rw [Value.flushed2]
  unfold out0_2
  rw [View.canon_unit_zero origin_zero]
  simp only [View.ld_unit_zero (S := S1x1024x128) origin_zero, View.ld_unit_zero (S := S1x2048x128) origin_zero]
  obtain ⟨e00, e01, e02, e10, e11, e12, b0, b1, e22⟩ := block_index_facts t
  funext y
  show k0_pay1 (iblk m c 0 t) (iblk m c 1 t) y
    = attnEach (V m c main_arg0) (V m c main_arg1) (((cfg0.win 2).blk t).view.emb y)
  obtain ⟨i0, i1, i2⟩ := result_block_emb t y
  have hy0 : (y 0).val < 1 := (y 0).isLt
  refine stored_entry _ _ _ _ y _ (fun e => ?_) (fun k e => ?_) ?_
  · refine query_block_apply m c t _ _ ?_ ?_ ?_
    · show ((((cfg0.win 2).blk t).view.emb y) 0).val = win0_0.index t (0 : Fin 3) * 1 + 0; omega
    · show ((((cfg0.win 2).blk t).view.emb y) 1).val = win0_0.index t (1 : Fin 3) * 1024 + (y 1).val; omega
    · show e.val = win0_0.index t (2 : Fin 3) * 128 + e.val; omega
  · refine key_block_apply m c t _ _ ?_ ?_ ?_
    · show ((((cfg0.win 2).blk t).view.emb y) 0).val = win0_1.index t (0 : Fin 3) * 1 + 0; omega
    · show k.val = win0_1.index t (1 : Fin 3) * 2048 + k.val; omega
    · show e.val = win0_1.index t (2 : Fin 3) * 128 + e.val; omega
  · omega

/-- An index of the result array lies in point `t`'s block iff each coordinate lies in the block's range on its axis. -/
theorem mem_result_block (t : Fin cfg0.N) (i : S16x2048x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v0).slice (win0_2.rect t)).set ↔ _
  rw [View.set_slice_whole, Rect.mem_set_unit]
  exact Iff.rfl

/-- The blocks tile the result array: entry (b, r, d) lies in the block of the point whose block index is (b, r / 1024, 0),
    whose rows are (r / 1024) * 1024 ... (r / 1024) * 1024 + 1023 and whose features are all 128. -/
theorem result_blocks_cover (i : S16x2048x128.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 128 := (i 2).isLt
  obtain ⟨t, ht⟩ := block_index_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_result_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- The result array after the run: every point wrote its block of the attention of the two argument arrays, and the
    blocks cover the array, so the array is that attention. -/
theorem final (c : Dev nD) : (dats m 0 c).arrAt 2 cfg0.N
    = attnEach (m ((c : Thread nD τ).loc main_arg0)) (m ((c : Thread nD τ).loc main_arg1)) :=
  (dats m 0 c).arrAt_eq_of_cover 2 (attnEach (V m c main_arg0) (V m c main_arg1)) (fun t _ => flushed_eq m c t)
    result_blocks_cover

/-- The run, read: the result array ends at the attention of the two argument arrays, and the arguments are unchanged. -/
theorem run : θ_run defs (onTc (τ := τ) (main (F := Ideal))) ⟨m, fun _ => 0, ρ⟩ fun r => ∀ c : Dev nD,
      r.2.mem ((c : Thread nD τ).loc main_v0)
        = attnEach (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.lean ====
/-
  Scaled dot-product attention with one array as both keys and values: the kernel against its reference, at the ideal values.
  Both compute, for a batch b, a query row q and a feature d, the sum over the key rows k of softmax_k(score(q, ·)) · x2(b, k, d).
  The kernel scales each query entry before contracting with the key row; the reference scales the contracted sum. The
  inputs are finite, so every entry is a real number, the scale is a real factor of every term of a finite sum of reals,
  and the two scores agree; everything after the scores is one function of the score row (row maximum, exponentials,
  row sum, quotient, second contraction), spelt by the kernel with vector reductions and by the reference with host
  reductions, both read as folds and sums over the key rows. The kernel's result array is assembled from the blocks its 32
  grid points write back, which tile the array; the three frames are the generated runs; the idealization rewrote nothing.
-/
import proofs.«178215_j39676907881693_2_alg».proof.Defs
import proofs.«178215_j39676907881693_2_alg».proof.Proof.Gen.Kernel
import proofs.«178215_j39676907881693_2_alg».proof.Proof.Gen.Kernel.Skeleton
import proofs.«178215_j39676907881693_2_alg».proof.Proof.Gen.Kernel.Launch
import proofs.«178215_j39676907881693_2_alg».proof.Proof.Gen.Kernel.Points
import proofs.«178215_j39676907881693_2_alg».proof.Proof.Gen.Kernel.Frame
import proofs.«178215_j39676907881693_2_alg».proof.Proof.Gen.KernelIdeal
import proofs.«178215_j39676907881693_2_alg».proof.Proof.Gen.KernelIdeal.Skeleton
import proofs.«178215_j39676907881693_2_alg».proof.Proof.Gen.KernelIdeal.Launch
import proofs.«178215_j39676907881693_2_alg».proof.Proof.Gen.KernelIdeal.Points
import proofs.«178215_j39676907881693_2_alg».proof.Proof.Gen.KernelIdeal.Frame
import proofs.«178215_j39676907881693_2_alg».proof.Proof.Gen.ReferenceIdeal
import proofs.«178215_j39676907881693_2_alg».proof.Proof.Gen.Pre_finite_inputs
import proofs.«178215_j39676907881693_2_alg».proof.Proof.Gen.KernelIdeal.Value
import proofs.«178215_j39676907881693_2_alg».proof.Proof.Gen.ReferenceIdeal.Run
import proofs.«178215_j39676907881693_2_alg».proof.Proof.Gen.ReferenceIdeal.Read
import proofs.«178215_j39676907881693_2_alg».proof.Proof.AttnSpec
import proofs.«178215_j39676907881693_2_alg».proof.Proof.Finite
import proofs.«178215_j39676907881693_2_alg».proof.Proof.RefAttn
import proofs.«178215_j39676907881693_2_alg».proof.Proof.KerArray
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a chain of host operations: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the attention of the two argument arrays: the kernel's array is the attention with the scale on
    each query entry, which on finite inputs is the attention with the scale on the contracted sum, the reference's value. -/
theorem algebraic : Cert.algebraic_KernelIdeal_ReferenceIdeal := by
  intro m ρ m' ρ' hpre hagree
  refine ⟨fun c => Cert.Attn.attnSum (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.Hand.run m ρ)
    obtain ⟨h0, h1⟩ := Cert.Attn.real_of_finite_inputs _ _ (hpre c)
    exact Cert.Attn.attnEach_eq_attnSum _ _ h0 h1
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
